-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S16384x4096 : Shape := ⟨2, ![16384, 4096]⟩
abbrev S128x32 : Shape := ⟨2, ![128, 32]⟩
abbrev S16384 : Shape := ⟨1, ![16384]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S128x32 : S_.BroadcastsInDim S128x32 (![] : Fin 0 → Fin S128x32.rank)
  reducesTo_S128x32_S_d0_1 : S128x32.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S2x2048x4096 .f32) (main_arg1 : FVec F S16384x4096 .f32) (main_arg2 : FVec F S128x32 .f32) (main_arg3 : FVec F S16384 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S2x2048x4096 : Shape := ⟨3, ![2, 2048, 4096]⟩
abbrev S16384x4096 : Shape := ⟨2, ![16384, 4096]⟩
abbrev S128x32 : Shape := ⟨2, ![128, 32]⟩
abbrev S16384 : Shape := ⟨1, ![16384]⟩
abbrev S4096x4096 : Shape := ⟨2, ![4096, 4096]⟩
abbrev S1x16384 : Shape := ⟨2, ![1, 16384]⟩
abbrev S4096x16384 : Shape := ⟨2, ![4096, 16384]⟩
abbrev S256x4096 : Shape := ⟨2, ![256, 4096]⟩
abbrev S1024x4096 : Shape := ⟨2, ![1024, 4096]⟩
abbrev S8x32 : Shape := ⟨2, ![8, 32]⟩
abbrev S1x1024 : Shape := ⟨2, ![1, 1024]⟩
abbrev S256x1024 : Shape := ⟨2, ![256, 1024]⟩
abbrev S1024x256 : Shape := ⟨2, ![1024, 256]⟩
abbrev S8x2 : Shape := ⟨2, ![8, 2]⟩
abbrev S8x1x2x1 : Shape := ⟨4, ![8, 1, 2, 1]⟩
abbrev S8x128x2x128 : Shape := ⟨4, ![8, 128, 2, 128]⟩
abbrev S2x2048x16384 : Shape := ⟨3, ![2, 2048, 16384]⟩

abbrev nBuf : Space → Nat
  | .hbm => 10
  | .vmem => 11
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .f32⟩
  | .hbm, ⟨2, _⟩ => ⟨S128x32, .f32⟩
  | .hbm, ⟨3, _⟩ => ⟨S16384, .f32⟩
  | .hbm, ⟨4, _⟩ => ⟨S4096x4096, .f32⟩
  | .hbm, ⟨5, _⟩ => ⟨S4096x4096, .bf16⟩
  | .hbm, ⟨6, _⟩ => ⟨S16384x4096, .bf16⟩
  | .hbm, ⟨7, _⟩ => ⟨S1x16384, .f32⟩
  | .hbm, ⟨8, _⟩ => ⟨S4096x16384, .f32⟩
  | .hbm, ⟨9, _⟩ => ⟨S2x2048x16384, .f32⟩
  | .local _ .vmem, ⟨0, _⟩ => ⟨S256x4096, .bf16⟩
  | .local _ .vmem, ⟨1, _⟩ => ⟨S256x4096, .bf16⟩
  | .local _ .vmem, ⟨2, _⟩ => ⟨S1024x4096, .bf16⟩
  | .local _ .vmem, ⟨3, _⟩ => ⟨S1024x4096, .bf16⟩
  | .local _ .vmem, ⟨4, _⟩ => ⟨S8x32, .f32⟩
  | .local _ .vmem, ⟨5, _⟩ => ⟨S8x32, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1024x4096, .bf16⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x2048x4096_S4096x4096 : S2x2048x4096.ShapeCasts S4096x4096
  bitsLt_bf16_f32 : FTy.bits .bf16 < FTy.bits .f32
  shapeCasts_S16384_S1x16384 : S16384.ShapeCasts S1x16384
  inb_S1024x4096_S1024x256_0_0 : ∀ a, (![0, 0] : Fin 2 → Nat) a + S1024x256.size a ≤ S1024x4096.size a
  h_S1024x256 : 0 < S1024x256.numel
  shapeCasts_S1024x256_S1024x256 : S1024x256.ShapeCasts S1024x256
  inb_S8x32_S8x2_0_0 : ∀ a, (![0, 0] : Fin 2 → Nat) a + S8x2.size a ≤ S8x32.size a
  h_S8x2 : 0 < S8x2.numel
  shapeCasts_S8x2_S8x1x2x1 : S8x2.ShapeCasts S8x1x2x1
  shapeCasts_S8x1x2x1_S8x1x2x1 : S8x1x2x1.ShapeCasts S8x1x2x1
  broadcasts_S8x1x2x1_S8x128x2x128 : S8x1x2x1.Broadcasts S8x128x2x128
  shapeCasts_S8x128x2x128_S1024x256 : S8x128x2x128.ShapeCasts S1024x256
  packedbf16_S1024x4096_S1024x256_0_0 : (Rect.unit (s := S1024x4096) ![0, 0] S1024x256.size inb_S1024x4096_S1024x256_0_0).PackedRows (EltTy.packing .bf16)
  inb_S1024x4096_S1024x256_0_256 : ∀ a, (![0, 256] : Fin 2 → Nat) a + S1024x256.size a ≤ S1024x4096.size a
  inb_S8x32_S8x2_0_2 : ∀ a, (![0, 2] : Fin 2 → Nat) a + S8x2.size a ≤ S8x32.size a
  packedbf16_S1024x4096_S1024x256_0_256 : (Rect.unit (s := S1024x4096) ![0, 256] S1024x256.size inb_S1024x4096_S1024x256_0_256).PackedRows (EltTy.packing .bf16)
  inb_S1024x4096_S1024x256_0_512 : ∀ a, (![0, 512] : Fin 2 → Nat) a + S1024x256.size a ≤ S1024x4096.size a
  inb_S8x32_S8x2_0_4 : ∀ a, (![0, 4] : Fin 2 → Nat) a + S8x2.size a ≤ S8x32.size a
  packedbf16_S1024x4096_S1024x256_0_512 : (Rect.unit (s := S1024x4096) ![0, 512] S1024x256.size inb_S1024x4096_S1024x256_0_512).PackedRows (EltTy.packing .bf16)
  inb_S1024x4096_S1024x256_0_768 : ∀ a, (![0, 768] : Fin 2 → Nat) a + S1024x256.size a ≤ S1024x4096.size a
  inb_S8x32_S8x2_0_6 : ∀ a, (![0, 6] : Fin 2 → Nat) a + S8x2.size a ≤ S8x32.size a
  packedbf16_S1024x4096_S1024x256_0_768 : (Rect.unit (s := S1024x4096) ![0, 768] S1024x256.size inb_S1024x4096_S1024x256_0_768).PackedRows (EltTy.packing .bf16)
  inb_S1024x4096_S1024x256_0_1024 : ∀ a, (![0, 1024] : Fin 2 → Nat) a + S1024x256.size a ≤ S1024x4096.size a
  inb_S8x32_S8x2_0_8 : ∀ a, (![0, 8] : Fin 2 → Nat) a + S8x2.size a ≤ S8x32.size a
  packedbf16_S1024x4096_S1024x256_0_1024 : (Rect.unit (s := S1024x4096) ![0, 1024] S1024x256.size inb_S1024x4096_S1024x256_0_1024).PackedRows (EltTy.packing .bf16)
  inb_S1024x4096_S1024x256_0_1280 : ∀ a, (![0, 1280] : Fin 2 → Nat) a + S1024x256.size a ≤ S1024x4096.size a
  inb_S8x32_S8x2_0_10 : ∀ a, (![0, 10] : Fin 2 → Nat) a + S8x2.size a ≤ S8x32.size a
  packedbf16_S1024x4096_S1024x256_0_1280 : (Rect.unit (s := S1024x4096) ![0, 1280] S1024x256.size inb_S1024x4096_S1024x256_0_1280).PackedRows (EltTy.packing .bf16)
  inb_S1024x4096_S1024x256_0_1536 : ∀ a, (![0, 1536] : Fin 2 → Nat) a + S1024x256.size a ≤ S1024x4096.size a
  inb_S8x32_S8x2_0_12 : ∀ a, (![0, 12] : Fin 2 → Nat) a + S8x2.size a ≤ S8x32.size a
  packedbf16_S1024x4096_S1024x256_0_1536 : (Rect.unit (s := S1024x4096) ![0, 1536] S1024x256.size inb_S1024x4096_S1024x256_0_1536).PackedRows (EltTy.packing .bf16)
  inb_S1024x4096_S1024x256_0_1792 : ∀ a, (![0, 1792] : Fin 2 → Nat) a + S1024x256.size a ≤ S1024x4096.size a
  inb_S8x32_S8x2_0_14 : ∀ a, (![0, 14] : Fin 2 → Nat) a + S8x2.size a ≤ S8x32.size a
  packedbf16_S1024x4096_S1024x256_0_1792 : (Rect.unit (s := S1024x4096) ![0, 1792] S1024x256.size inb_S1024x4096_S1024x256_0_1792).PackedRows (EltTy.packing .bf16)
  inb_S1024x4096_S1024x256_0_2048 : ∀ a, (![0, 2048] : Fin 2 → Nat) a + S1024x256.size a ≤ S1024x4096.size a
  inb_S8x32_S8x2_0_16 : ∀ a, (![0, 16] : Fin 2 → Nat) a + S8x2.size a ≤ S8x32.size a
  packedbf16_S1024x4096_S1024x256_0_2048 : (Rect.unit (s := S1024x4096) ![0, 2048] S1024x256.size inb_S1024x4096_S1024x256_0_2048).PackedRows (EltTy.packing .bf16)
  inb_S1024x4096_S1024x256_0_2304 : ∀ a, (![0, 2304] : Fin 2 → Nat) a + S1024x256.size a ≤ S1024x4096.size a
  inb_S8x32_S8x2_0_18 : ∀ a, (![0, 18] : Fin 2 → Nat) a + S8x2.size a ≤ S8x32.size a
  packedbf16_S1024x4096_S1024x256_0_2304 : (Rect.unit (s := S1024x4096) ![0, 2304] S1024x256.size inb_S1024x4096_S1024x256_0_2304).PackedRows (EltTy.packing .bf16)
  inb_S1024x4096_S1024x256_0_2560 : ∀ a, (![0, 2560] : Fin 2 → Nat) a + S1024x256.size a ≤ S1024x4096.size a
  inb_S8x32_S8x2_0_20 : ∀ a, (![0, 20] : Fin 2 → Nat) a + S8x2.size a ≤ S8x32.size a
  packedbf16_S1024x4096_S1024x256_0_2560 : (Rect.unit (s := S1024x4096) ![0, 2560] S1024x256.size inb_S1024x4096_S1024x256_0_2560).PackedRows (EltTy.packing .bf16)
  inb_S1024x4096_S1024x256_0_2816 : ∀ a, (![0, 2816] : Fin 2 → Nat) a + S1024x256.size a ≤ S1024x4096.size a
  inb_S8x32_S8x2_0_22 : ∀ a, (![0, 22] : Fin 2 → Nat) a + S8x2.size a ≤ S8x32.size a
  packedbf16_S1024x4096_S1024x256_0_2816 : (Rect.unit (s := S1024x4096) ![0, 2816] S1024x256.size inb_S1024x4096_S1024x256_0_2816).PackedRows (EltTy.packing .bf16)
  inb_S1024x4096_S1024x256_0_3072 : ∀ a, (![0, 3072] : Fin 2 → Nat) a + S1024x256.size a ≤ S1024x4096.size a
  inb_S8x32_S8x2_0_24 : ∀ a, (![0, 24] : Fin 2 → Nat) a + S8x2.size a ≤ S8x32.size a
  packedbf16_S1024x4096_S1024x256_0_3072 : (Rect.unit (s := S1024x4096) ![0, 3072] S1024x256.size inb_S1024x4096_S1024x256_0_3072).PackedRows (EltTy.packing .bf16)
  inb_S1024x4096_S1024x256_0_3328 : ∀ a, (![0, 3328] : Fin 2 → Nat) a + S1024x256.size a ≤ S1024x4096.size a
  inb_S8x32_S8x2_0_26 : ∀ a, (![0, 26] : Fin 2 → Nat) a + S8x2.size a ≤ S8x32.size a
  packedbf16_S1024x4096_S1024x256_0_3328 : (Rect.unit (s := S1024x4096) ![0, 3328] S1024x256.size inb_S1024x4096_S1024x256_0_3328).PackedRows (EltTy.packing .bf16)
  inb_S1024x4096_S1024x256_0_3584 : ∀ a, (![0, 3584] : Fin 2 → Nat) a + S1024x256.size a ≤ S1024x4096.size a
  inb_S8x32_S8x2_0_28 : ∀ a, (![0, 28] : Fin 2 → Nat) a + S8x2.size a ≤ S8x32.size a
  packedbf16_S1024x4096_S1024x256_0_3584 : (Rect.unit (s := S1024x4096) ![0, 3584] S1024x256.size inb_S1024x4096_S1024x256_0_3584).PackedRows (EltTy.packing .bf16)
  inb_S1024x4096_S1024x256_0_3840 : ∀ a, (![0, 3840] : Fin 2 → Nat) a + S1024x256.size a ≤ S1024x4096.size a
  inb_S8x32_S8x2_0_30 : ∀ a, (![0, 30] : Fin 2 → Nat) a + S8x2.size a ≤ S8x32.size a
  packedbf16_S1024x4096_S1024x256_0_3840 : (Rect.unit (s := S1024x4096) ![0, 3840] S1024x256.size inb_S1024x4096_S1024x256_0_3840).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1024x4096_S1024x4096_0_0 : ∀ a, (![0, 0] : Fin 2 → Nat) a + S1024x4096.size a ≤ S1024x4096.size a
  h_S1024x4096 : 0 < S1024x4096.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  shapeCasts_S4096x16384_S2x2048x16384 : S4096x16384.ShapeCasts S2x2048x16384
  dot_S256x4096_S1024x4096_S256x1024_1_1_0_0_n_n_wf : DotDims.WF S256x4096 S1024x4096 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .bf16 = 32 ∨ (Rect.block (s := S4096x4096) S256x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S16384x4096.size a
  hwx0_1 : ∀ i : grid0.Coords, EltTy.bits .bf16 = 32 ∨ (Rect.block (s := S16384x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x32.size a ≤ S128x32.size a
  hwx0_2 : ∀ i : grid0.Coords, EltTy.bits .f32 = 32 ∨ (Rect.block (s := S128x32) S8x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x16384.size a
  hwx0_4 : ∀ i : grid0.Coords, EltTy.bits .f32 = 32 ∨ (Rect.block (s := S4096x16384) S256x1024.size (cc0_transform_4 i) (hinb0_4 i)).WholeWords (EltTy.packing .f32)

variable [Facts₀]

def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S16384x4096 : Shape := ⟨2, ![16384, 4096]⟩
abbrev S128x32 : Shape := ⟨2, ![128, 32]⟩
abbrev S16384 : Shape := ⟨1, ![16384]⟩
abbrev S128x128x32x128 : Shape := ⟨4, ![128, 128, 32, 128]⟩
abbrev S128x1x32x1 : Shape := ⟨4, ![128, 1, 32, 1]⟩
abbrev S2x2048x16384 : Shape := ⟨3, ![2, 2048, 16384]⟩
abbrev S1x1x16384 : Shape := ⟨3, ![1, 1, 16384]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S16384x4096, .f32⟩
  | .hbm, ⟨2, _⟩ => ⟨S128x32, .f32⟩
  | .hbm, ⟨3, _⟩ => ⟨S16384, .f32⟩
  | .hbm, ⟨4, _⟩ => ⟨S128x128x32x128, .f32⟩
  | .hbm, ⟨5, _⟩ => ⟨S128x1x32x1, .f32⟩
  | .hbm, ⟨6, _⟩ => ⟨S128x128x32x128, .f32⟩
  | .hbm, ⟨7, _⟩ => ⟨S128x128x32x128, .f32⟩
  | .hbm, ⟨8, _⟩ => ⟨S16384x4096, .f32⟩
  | .hbm, ⟨9, _⟩ => ⟨S2x2048x16384, .f32⟩
  | .hbm, ⟨10, _⟩ => ⟨S1x1x16384, .f32⟩
  | .hbm, ⟨11, _⟩ => ⟨S2x2048x16384, .f32⟩
  | .hbm, ⟨12, _⟩ => ⟨S2x2048x16384, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S16384x4096_S128x128x32x128 : S16384x4096.ShapeCasts S128x128x32x128
  bcast_S128x32_S128x1x32x1_0_2 : S128x32.BroadcastsInDim S128x1x32x1 (![0, 2] : Fin 2 → Fin S128x1x32x1.rank)
  bcast_S128x1x32x1_S128x128x32x128_0_1_2_3 : S128x1x32x1.BroadcastsInDim S128x128x32x128 (![0, 1, 2, 3] : Fin 4 → Fin S128x128x32x128.rank)
  shapeCasts_S128x128x32x128_S16384x4096 : S128x128x32x128.ShapeCasts S16384x4096
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  dot_S2x2048x4096_S16384x4096_S2x2048x16384_2_1_01_0_n_n_wf : DotDims.WF S2x2048x4096 S16384x4096 S2x2048x16384 [2] [1] [0, 1] [0] [] []

variable [Facts₀]

def dot_S2x2048x4096_S16384x4096_S2x2048x16384_2_1_01_0_n_n : DotDims S2x2048x4096 S16384x4096 S2x2048x16384 where
  lhsContracting := [2]
  rhsContracting := [1]
  lhsNonContracting := [0, 1]
  rhsNonContracting := [0]
  lhsBatch := []
  rhsBatch := []
  wf := dot_S2x2048x4096_S16384x4096_S2x2048x16384_2_1_01_0_n_n_wf

class Facts : Prop extends Facts₀ where

variable [Facts]
-- ==== Proof.Spec.lean ====
/-
  The function both programs compute, entry by entry, over the extended reals.

  The weight matrix w [16384, 4096] is cut into 128 × 128 blocks and block (o / 128, k / 128) is scaled by
  scale[o / 128, k / 128]; the result is x against the transpose of the scaled weight, plus the bias:

      out[b, s, o] = (Σ_k x[b, s, k] · (w[o, k] · scale[o / 128, k / 128])) + bias[o].

  Nothing here needs the entries to be finite: the two programs form the same products and the same sum, so no
  product is ever moved across a sum.
-/
import Idealize.ShloMosaic.PureOps.Ideal
import Idealize.ShloMosaic.Lib.ValueIdx

noncomputable section

open scoped BigOperators

namespace Cert.DequantGemm

open Idealize.ShloMosaic Idealize.ShloMosaic.ValueIdx

/-- The block of 128 rows that weight row `o` lies in. -/
abbrev rowBlock (o : Fin 16384) : Fin 128 := ⟨o.val / 128, by have := o.isLt; omega⟩

/-- The block of 128 columns that weight column `k` lies in. -/
abbrev colBlock (k : Fin 4096) : Fin 32 := ⟨k.val / 128, by have := k.isLt; omega⟩

/-- Entry (o, k) of the scaled weight: the weight's entry times the scale of its 128 × 128 block. -/
def scaled (W : (⟨2, ![16384, 4096]⟩ : Shape).Idx → EReal) (S : (⟨2, ![128, 32]⟩ : Shape).Idx → EReal)
    (o : Fin 16384) (k : Fin 4096) : EReal :=
  W (ix2 o k) * S (ix2 (rowBlock o) (colBlock k))

/-- The result at (b, s, o): row (b, s) of `x` against row `o` of the scaled weight, plus the bias at `o`. -/
def result (X : (⟨3, ![2, 2048, 4096]⟩ : Shape).Idx → EReal) (W : (⟨2, ![16384, 4096]⟩ : Shape).Idx → EReal)
    (S : (⟨2, ![128, 32]⟩ : Shape).Idx → EReal) (B : (⟨1, ![16384]⟩ : Shape).Idx → EReal) :
    (⟨3, ![2, 2048, 16384]⟩ : Shape).Idx → EReal :=
  fun i => (∑ k : Fin 4096, X (ix3 (n0 := 2) (n1 := 2048) (n2 := 4096) (i 0) (i 1) k) * scaled W S (i 2) k)
    + B (ix1 (n := 16384) (i 2))

/-- The same over the flattened rows m = 2048 · b + s, as the kernel computes it: a matrix [4096, 16384]. -/
def flat (X2 : (⟨2, ![4096, 4096]⟩ : Shape).Idx → EReal) (W : (⟨2, ![16384, 4096]⟩ : Shape).Idx → EReal)
    (S : (⟨2, ![128, 32]⟩ : Shape).Idx → EReal) (B2 : (⟨2, ![1, 16384]⟩ : Shape).Idx → EReal) :
    (⟨2, ![4096, 16384]⟩ : Shape).Idx → EReal :=
  fun i => (∑ k : Fin 4096, X2 (ix2 (n0 := 4096) (n1 := 4096) (i 0) k) * scaled W S (i 1) k)
    + B2 (ix2 (n0 := 1) (n1 := 16384) 0 (i 1))

/-- The flattened form at row 2048·b + s is the result at (b, s): if `X2` is `X` with its first two axes merged and
    `B2` is `B` as a one-row matrix, the two sums have the same terms. -/
theorem flat_eq_result (X : (⟨3, ![2, 2048, 4096]⟩ : Shape).Idx → EReal) (X2 : (⟨2, ![4096, 4096]⟩ : Shape).Idx → EReal)
    (W : (⟨2, ![16384, 4096]⟩ : Shape).Idx → EReal) (S : (⟨2, ![128, 32]⟩ : Shape).Idx → EReal)
    (B : (⟨1, ![16384]⟩ : Shape).Idx → EReal) (B2 : (⟨2, ![1, 16384]⟩ : Shape).Idx → EReal)
    (hX : ∀ (b : Fin 2) (s : Fin 2048) (k : Fin 4096),
      X2 (ix2 (n0 := 4096) (n1 := 4096) ⟨b.val * 2048 + s.val, by have := b.isLt; have := s.isLt; omega⟩ k) = X (ix3 b s k))
    (hB : ∀ o : Fin 16384, B2 (ix2 (n0 := 1) (n1 := 16384) 0 o) = B (ix1 o))
    (b : Fin 2) (s : Fin 2048) (o : Fin 16384) :
    flat X2 W S B2 (ix2 (n0 := 4096) (n1 := 16384) ⟨b.val * 2048 + s.val, by have := b.isLt; have := s.isLt; omega⟩ o)
      = result X W S B (ix3 b s o) := by
  show (∑ k : Fin 4096, X2 (ix2 (n0 := 4096) (n1 := 4096) ⟨b.val * 2048 + s.val, _⟩ k) * scaled W S o k)
      + B2 (ix2 (n0 := 1) (n1 := 16384) 0 o)
    = (∑ k : Fin 4096, X (ix3 b s k) * scaled W S o k) + B (ix1 o)
  rw [hB o]
  exact congrArg (· + B (ix1 o)) (Finset.sum_congr rfl fun k _ => by rw [hX b s k])

end Cert.DequantGemm

end
-- ==== Proof.RefSide.lean ====
/-
  The reference program computes the specification.

  The reference views the weight [16384, 4096] as [128, 128, 32, 128] (row o = 128·a + b', column k = 128·c + d),
  multiplies entry (a, b', c, d) by scale[a, c], views the product as [16384, 4096] again, contracts x with it over k and
  adds the bias. Going to the four-axis view and back returns entry (o, k), and the scale it meets there is
  scale[o / 128, k / 128]; so the reference's scaled weight is the specification's, and its result is the same sum.
-/
import proofs.«164766_j54666343743647_2_alg».proof.Proof.Gen.ReferenceIdeal.Read
import proofs.«164766_j54666343743647_2_alg».proof.Proof.Spec

noncomputable section

open scoped BigOperators

namespace Cert.ReferenceIdeal.Bridge

open Idealize.ShloMosaic Idealize.ShloMosaic.ValueIdx
open Cert.ReferenceIdeal Cert.ReferenceIdeal.Gen Cert.ReferenceIdeal.Read Cert.DequantGemm

/-- The reference's scaled weight at (o, k) is weight[o, k] · scale[o / 128, k / 128]. -/
theorem scaled_apply (x1 : (⟨S16384x4096, .f32⟩ : BufTy).Contents (Elt Ideal)) (x2 : (⟨S128x32, .f32⟩ : BufTy).Contents (Elt Ideal))
    (o : Fin 16384) (k : Fin 4096) :
    val_main_v4 (F := Ideal) x1 x2 (ix2 o k) = scaled x1 x2 o k := by
  rw [val_main_v4_apply, val_main_v3_apply, val_main_v0_apply, val_main_v2_apply, val_main_v1_apply, Ideal.mulf_def]
  unfold scaled
  have ho := o.isLt
  have hk := k.isLt
  refine congrArg₂ (fun (a b : EReal) => a * b) (congrArg x1 (funext fun a => Fin.ext ?_)) (congrArg x2 (funext fun a => Fin.ext ?_))
  · match a with
    | ⟨0, _⟩ =>
      show ((((o.val * 4096 + k.val) / 524288 * 128 + (o.val * 4096 + k.val) / 4096 % 128) * 32 + (o.val * 4096 + k.val) / 128 % 32) * 128 + (o.val * 4096 + k.val) % 128) / 4096 = o.val
      omega
    | ⟨1, _⟩ =>
      show ((((o.val * 4096 + k.val) / 524288 * 128 + (o.val * 4096 + k.val) / 4096 % 128) * 32 + (o.val * 4096 + k.val) / 128 % 32) * 128 + (o.val * 4096 + k.val) % 128) % 4096 = k.val
      omega
  · match a with
    | ⟨0, _⟩ => show (o.val * 4096 + k.val) / 524288 = o.val / 128; omega
    | ⟨1, _⟩ => show (o.val * 4096 + k.val) / 128 % 32 = k.val / 128; omega

/-- The reference's result is the specification of its four argument arrays. -/
theorem reference_result (x0 : (⟨S2x2048x4096, .f32⟩ : BufTy).Contents (Elt Ideal)) (x1 : (⟨S16384x4096, .f32⟩ : BufTy).Contents (Elt Ideal))
    (x2 : (⟨S128x32, .f32⟩ : BufTy).Contents (Elt Ideal)) (x3 : (⟨S16384, .f32⟩ : BufTy).Contents (Elt Ideal)) :
    val_main_v8 (F := Ideal) x0 x1 x2 x3 = result x0 x1 x2 x3 := by
  funext i
  obtain ⟨b, s, o, rfl⟩ : ∃ (b : Fin 2) (s : Fin 2048) (o : Fin 16384), i = ix3 b s o := ⟨i 0, i 1, i 2, eq_ix3 i⟩
  rw [val_main_v8_apply, val_main_v5_apply, val_main_v7_apply, val_main_v6_apply, Ideal.addf_def]
  unfold result
  refine congrArg₂ (fun (a b : EReal) => a + b) (Finset.sum_congr rfl fun k _ => ?_) (congrArg x3 (funext fun a => Fin.ext ?_))
  · refine congrArg₂ (fun (a b : EReal) => a * b) (congrArg x0 (funext fun a => Fin.ext ?_)) ?_
    · match a with
      | ⟨0, _⟩ => rfl
      | ⟨1, _⟩ => rfl
      | ⟨2, _⟩ => rfl
    · exact (congrArg (val_main_v4 (F := Ideal) x1 x2) (funext fun a => Fin.ext (by
        match a with
        | ⟨0, _⟩ => rfl
        | ⟨1, _⟩ => rfl))).trans (scaled_apply x1 x2 o k)
  · match a with
    | ⟨0, _⟩ => rfl

end Cert.ReferenceIdeal.Bridge

end
-- ==== Proof.KDequant.lean ====
/-
  One chunk of the kernel's dequantization, read at an entry.

  A chunk is a [1024, 256] piece of a weight tile (1024 rows, 256 of its 4096 columns) together with the [8, 2]
  piece of the scale tile that covers it. The body views the scale piece as [8, 1, 2, 1], repeats it to
  [8, 128, 2, 128] and flattens that to [1024, 256]: entry (p, q) of the flattened array sits at
  (p / 128, p % 128, q / 128, q % 128) of the repeated one, so it is the scale of block (p / 128, q / 128).
  The chunk's value at (p, q) is therefore weight[p, q] · scale[p / 128, q / 128] (the changes of float format are
  the identity on extended reals). All sixteen chunks of the body are this one function.
-/
import proofs.«164766_j54666343743647_2_alg».proof.Proof.Gen.KernelIdeal.Skeleton
import Idealize.ShloMosaic.Lib.Pipeline.Value
import Idealize.ShloMosaic.Lib.ValueIdx

noncomputable section

namespace Cert.KernelIdeal.Bridge

open Idealize.ShloMosaic Idealize.ShloMosaic.ValueIdx Idealize.ShloMosaic.View
open Cert.KernelIdeal Cert.KernelIdeal.Gen

/-- The block of 128 rows that row `p` of a 1024-row tile lies in. -/
abbrev tileRowBlock (p : Fin 1024) : Fin 8 := ⟨p.val / 128, by have := p.isLt; omega⟩

/-- The block of 128 columns that column `q` of a 256-column chunk lies in. -/
abbrev chunkColBlock (q : Fin 256) : Fin 2 := ⟨q.val / 128, by have := q.isLt; omega⟩

/-- The scale piece [8, 2] spread over its [1024, 256] chunk: entry (p, q) is the scale of block (p / 128, q / 128). -/
theorem spread_apply {α : Type} (sv : S8x2.Idx → α) (p : Fin 1024) (q : Fin 256) :
    shapeCast S1024x256
        (broadcastTo S8x128x2x128
          (shapeCast S8x1x2x1 (shapeCast S8x1x2x1 sv shapeCasts_S8x2_S8x1x2x1) shapeCasts_S8x1x2x1_S8x1x2x1)
          broadcasts_S8x1x2x1_S8x128x2x128)
        shapeCasts_S8x128x2x128_S1024x256 (ix2 p q)
      = sv (ix2 (tileRowBlock p) (chunkColBlock q)) := by
  have hp := p.isLt
  have hq := q.isLt
  rw [shapeCast_self]
  rw [shapeCast_apply _ shapeCasts_S8x128x2x128_S1024x256 (ix2 p q)
    (ix4 (n0 := 8) (n1 := 128) (n2 := 2) (n3 := 128) (tileRowBlock p) ⟨p.val % 128, Nat.mod_lt _ (by decide)⟩
      (chunkColBlock q) ⟨q.val % 128, Nat.mod_lt _ (by decide)⟩)
    (by rw [Shape.rowMajor_val_four, Shape.rowMajor_val_two]
        show ((p.val / 128 * 128 + p.val % 128) * 2 + q.val / 128) * 128 + q.val % 128 = p.val * 256 + q.val
        omega)]
  rw [broadcastTo_apply _ broadcasts_S8x1x2x1_S8x128x2x128 _
    (ix4 (n0 := 8) (n1 := 1) (n2 := 2) (n3 := 1) (tileRowBlock p) 0 (chunkColBlock q) 0)
    (fun a => match a with
      | ⟨0, _⟩ => rfl
      | ⟨1, _⟩ => rfl
      | ⟨2, _⟩ => rfl
      | ⟨3, _⟩ => rfl)]
  exact shapeCast_apply sv shapeCasts_S8x2_S8x1x2x1 _ (ix2 (tileRowBlock p) (chunkColBlock q))
    (by rw [Shape.rowMajor_val_four, Shape.rowMajor_val_two]
        show p.val / 128 * 2 + q.val / 128 = ((p.val / 128 * 1 + 0) * 2 + q.val / 128) * 1 + 0
        omega)

/-- One chunk's value at (p, q), over the extended reals: weight[p, q] · scale[p / 128, q / 128]. -/
theorem chunk_apply (wv : Vec Ideal S1024x256 .bf16) (sv : Vec Ideal S8x2 .f32) (p : Fin 1024) (q : Fin 256) :
    k0_pay3 (F := Ideal) wv sv (ix2 p q) = wv (ix2 p q) * sv (ix2 (tileRowBlock p) (chunkColBlock q)) := by
  unfold k0_pay3
  rw [shapeCast_self, shapeCast_self]
  show (wv (ix2 p q) : EReal) * _ = _
  exact congrArg (wv (ix2 p q) * ·) (spread_apply sv p q)

/-- The body's sixteen chunks are one function of the weight piece and the scale piece. -/
theorem pay1_eq : @k0_pay1 = @k0_pay3 := rfl
theorem pay4_eq : @k0_pay4 = @k0_pay3 := rfl
theorem pay5_eq : @k0_pay5 = @k0_pay3 := rfl
theorem pay6_eq : @k0_pay6 = @k0_pay3 := rfl
theorem pay7_eq : @k0_pay7 = @k0_pay3 := rfl
theorem pay8_eq : @k0_pay8 = @k0_pay3 := rfl
theorem pay9_eq : @k0_pay9 = @k0_pay3 := rfl
theorem pay10_eq : @k0_pay10 = @k0_pay3 := rfl
theorem pay11_eq : @k0_pay11 = @k0_pay3 := rfl
theorem pay12_eq : @k0_pay12 = @k0_pay3 := rfl
theorem pay13_eq : @k0_pay13 = @k0_pay3 := rfl
theorem pay14_eq : @k0_pay14 = @k0_pay3 := rfl
theorem pay15_eq : @k0_pay15 = @k0_pay3 := rfl
theorem pay16_eq : @k0_pay16 = @k0_pay3 := rfl
theorem pay17_eq : @k0_pay17 = @k0_pay3 := rfl

end Cert.KernelIdeal.Bridge

end
-- ==== Proof.KPieces.lean ====
/-
  What one run of the body leaves in its two buffers, as values.

  At a point that begins a row of the grid (inner coordinate 0) the body first fills the scratch buffer: sixteen
  chunks of 256 columns each, chunk number ch from columns 256·ch … 256·ch + 255 of the weight tile and columns
  2·ch, 2·ch + 1 of the scale tile. Column 256·ch + q lies in column block 2·ch + q / 128, so the sixteen chunks
  together are ONE function of the two tiles: entry (p, k) is weight[p, k] · scale[p / 128, k / 128] (`tile`).
  Then, at every point, it reads the scratch buffer back whole and writes the product-plus-bias of the x block, the
  scratch contents and the bias piece to the output block. At the other points the scratch buffer is left as found.
-/
import proofs.«164766_j54666343743647_2_alg».proof.Proof.Gen.KernelIdeal.Frame
import proofs.«164766_j54666343743647_2_alg».proof.Proof.KDequant
import Idealize.ShloMosaic.Lib.Pipeline.Value
import Idealize.ShloMosaic.Lib.Tactic
import Idealize.ShloMosaic.Lib.ValueIdx

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen

theorem hz : (![0, 0] : Fin 2 → Nat) = fun _ => 0 := funext fun a => by fin_cases a <;> rfl

/-! ## The output block, at any float instance -/

section AnyInstance
variable {F : FTy → Type} [FloatOps F]

/-- Away from the start of a grid row the output block is the product-plus-bias over the scratch contents the point
    before left. -/
theorem out_B (c : Dev nD) (i : grid0.Coords) (arg2 : Memref sig .tc .vmem S256x4096 .bf16) (harg2 : arg2.IsWhole) (arg3 : Memref sig .tc .vmem S1024x4096 .bf16) (harg3 : arg3.IsWhole) (arg4 : Memref sig .tc .vmem S8x32 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S1024x4096 .bf16) (harg7 : arg7.IsWhole) (hc0 : ¬cond0_0 i) (x0 : Vec F S256x4096 .bf16) (x1 : Vec F S1024x4096 .bf16) (x2 : Vec F S8x32 .f32) (x3 : Vec F S1x1024 .f32) (xs0 : Vec F S1024x4096 .bf16) :
    out0_B_4 c i arg2 harg2 arg3 harg3 arg4 harg4 arg5 harg5 arg6 harg6 arg7 harg7 hc0 x0 x1 x2 x3 xs0 = k0_pay2 x0 xs0 x3 := by
  unfold out0_B_4
  rw [View.read_writes_eq_canon _ _ _ (cover0_B_4 c i arg2 harg2 arg3 harg3 arg4 harg4 arg5 harg5 arg6 harg6 arg7 harg7 hc0 x0 x1 x2 x3 xs0)]
  unfold kernelRun0_B
  dsimp only
  sl_unfold_words
  rw [View.canon_unit_zero hz]
  simp only [View.readAt_eq_ld, harg2.read_unread, harg5.read_unread, harg7.read_unread,
    View.ld_unit_zero (S := S256x4096) hz, View.ld_unit_zero (S := S1024x4096) hz, View.ld_unit_zero (S := S1x1024) hz]

/-- At the start of a grid row the output block is the product-plus-bias over what this same run has just left in the
    scratch buffer: the read-back of the sixteen chunks, which cover the buffer, is their joint contents. -/
theorem out_A (c : Dev nD) (i : grid0.Coords) (arg2 : Memref sig .tc .vmem S256x4096 .bf16) (harg2 : arg2.IsWhole) (arg3 : Memref sig .tc .vmem S1024x4096 .bf16) (harg3 : arg3.IsWhole) (arg4 : Memref sig .tc .vmem S8x32 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S1024x4096 .bf16) (harg7 : arg7.IsWhole) (hc0 : cond0_0 i) (x0 : Vec F S256x4096 .bf16) (x1 : Vec F S1024x4096 .bf16) (x2 : Vec F S8x32 .f32) (x3 : Vec F S1x1024 .f32) :
    out0_A_4 c i arg2 harg2 arg3 harg3 arg4 harg4 arg5 harg5 arg6 harg6 arg7 harg7 hc0 x0 x1 x2 x3 = k0_pay2 x0 (sout0_A_0 c i arg2 harg2 arg3 harg3 arg4 harg4 arg5 harg5 arg6 harg6 arg7 harg7 hc0 x0 x1 x2 x3) x3 := by
  unfold out0_A_4 sout0_A_0
  rw [View.read_writes_eq_canon _ _ _ (cover0_A_4 c i arg2 harg2 arg3 harg3 arg4 harg4 arg5 harg5 arg6 harg6 arg7 harg7 hc0 x0 x1 x2 x3),
    View.read_writes_eq_canon _ _ _ (scover0_A_0 c i arg2 harg2 arg3 harg3 arg4 harg4 arg5 harg5 arg6 harg6 arg7 harg7 hc0 x0 x1 x2 x3)]
  have hcov := scover0_A_0 c i arg2 harg2 arg3 harg3 arg4 harg4 arg5 harg5 arg6 harg6 arg7 harg7 hc0 x0 x1 x2 x3
  unfold kernelRun0_A at hcov ⊢
  dsimp only at hcov ⊢
  sl_unfold_words
  rw [View.canon_unit_zero hz]
  have e0 : View.readAt (Elt F) arg2.view (Rect.unit ![0, 0] ![256, 4096] inb_S256x4096_S256x4096_0_0).toLoadRect (harg2.unread x0) = x0 := by
    rw [View.readAt_eq_ld, harg2.read_unread, View.ld_unit_zero hz]
  have e3 : View.readAt (Elt F) arg5.view (Rect.unit ![0, 0] ![1, 1024] inb_S1x1024_S1x1024_0_0).toLoadRect (harg5.unread x3) = x3 := by
    rw [View.readAt_eq_ld, harg5.read_unread, View.ld_unit_zero hz]
  rw [e0, e3]
  exact congrArg (fun d => k0_pay2 x0 d x3) ((View.readCov_eq_canon_ld _ _ _ hcov).trans (View.ld_unit_zero hz _ _))

end AnyInstance

/-! ## The scratch buffer, over the extended reals -/

/-- The scaled weight tile: entry (p, k) is weight[p, k] · scale[p / 128, k / 128]. -/
def tile (wt : Vec Ideal S1024x4096 .bf16) (st : Vec Ideal S8x32 .f32) : Vec Ideal S1024x4096 .bf16 :=
  fun y => wt y * st (ix2 (n0 := 8) (n1 := 32) ⟨(y 0).val / 128, by have := idx2_lt0 y; omega⟩
    ⟨(y 1).val / 128, by have := idx2_lt1 y; omega⟩)

/-- The chunk at columns co … co + 255, with scale columns so, so + 1 where co = 128 · so, is the scaled tile on its
    columns. -/
theorem chunk_is_tile (wt : Vec Ideal S1024x4096 .bf16) (st : Vec Ideal S8x32 .f32) (co so : Nat) (hco : co = 128 * so)
    (inbW : ∀ a, (![0, co] : Fin 2 → Nat) a + S1024x256.size a ≤ S1024x4096.size a)
    (inbS : ∀ a, (![0, so] : Fin 2 → Nat) a + S8x2.size a ≤ S8x32.size a) (x : S1024x256.Idx) :
    k0_pay3 (F := Ideal) (View.ld wt (Rect.unit ![0, co] S1024x256.size inbW)) (View.ld st (Rect.unit ![0, so] S8x2.size inbS)) x
      = tile wt st ((Rect.unit (s := S1024x4096) ![0, co] S1024x256.size inbW).emb x) := by
  obtain ⟨p, q, rfl⟩ : ∃ (p : Fin 1024) (q : Fin 256), x = ix2 p q := ⟨x 0, x 1, eq_ix2 x⟩
  rw [chunk_apply]
  unfold tile
  show wt ((Rect.unit (s := S1024x4096) ![0, co] S1024x256.size inbW).idx (ix2 p q))
      * st ((Rect.unit (s := S8x32) ![0, so] S8x2.size inbS).idx (ix2 (tileRowBlock p) (chunkColBlock q))) = _
  refine congrArg (wt ((Rect.unit (s := S1024x4096) ![0, co] S1024x256.size inbW).idx (ix2 p q)) * st ·) ?_
  have hp := p.isLt
  have hq := q.isLt
  funext a
  apply Fin.ext
  match a with
  | ⟨0, _⟩ => show 0 + 1 * (p.val / 128) = (0 + 1 * p.val) / 128; omega
  | ⟨1, _⟩ => show so + 1 * (q.val / 128) = (co + 1 * q.val) / 128; omega

/-- At the start of a grid row the body leaves the scaled tile of its weight block and scale block in the scratch buffer. -/
theorem tile_A (c : Dev nD) (i : grid0.Coords) (arg2 : Memref sig .tc .vmem S256x4096 .bf16) (harg2 : arg2.IsWhole) (arg3 : Memref sig .tc .vmem S1024x4096 .bf16) (harg3 : arg3.IsWhole) (arg4 : Memref sig .tc .vmem S8x32 .f32) (harg4 : arg4.IsWhole) (arg5 : Memref sig .tc .vmem S1x1024 .f32) (harg5 : arg5.IsWhole) (arg6 : Memref sig .tc .vmem S256x1024 .f32) (harg6 : arg6.IsWhole) (arg7 : Memref sig .tc .vmem S1024x4096 .bf16) (harg7 : arg7.IsWhole) (hc0 : cond0_0 i)
    (x0 : Vec Ideal S256x4096 .bf16) (x1 : Vec Ideal S1024x4096 .bf16) (x2 : Vec Ideal S8x32 .f32) (x3 : Vec Ideal S1x1024 .f32) :
    sout0_A_0 (F := Ideal) c i arg2 harg2 arg3 harg3 arg4 harg4 arg5 harg5 arg6 harg6 arg7 harg7 hc0 x0 x1 x2 x3 = tile x1 x2 := by
  unfold sout0_A_0
  rw [View.read_writes_eq_canon _ _ _ (scover0_A_0 c i arg2 harg2 arg3 harg3 arg4 harg4 arg5 harg5 arg6 harg6 arg7 harg7 hc0 x0 x1 x2 x3)]
  have hcov := scover0_A_0 (F := Ideal) c i arg2 harg2 arg3 harg3 arg4 harg4 arg5 harg5 arg6 harg6 arg7 harg7 hc0 x0 x1 x2 x3
  unfold kernelRun0_A at hcov ⊢
  dsimp only at hcov ⊢
  sl_unfold_words
  funext y
  refine View.canon_apply_of_pieces (tile x1 x2) _ ?_ y (hcov y)
  intro pc hpc
  simp only [List.mem_cons, List.mem_nil_iff, or_false] at hpc
  simp only [View.readAt_eq_ld, harg3.read_unread, harg4.read_unread, pay1_eq, pay4_eq, pay5_eq, pay6_eq, pay7_eq, pay8_eq,
    pay9_eq, pay10_eq, pay11_eq, pay12_eq, pay13_eq, pay14_eq, pay15_eq, pay16_eq, pay17_eq] at hpc
  rcases hpc with rfl | rfl | rfl | rfl | rfl | rfl | rfl | rfl | rfl | rfl | rfl | rfl | rfl | rfl | rfl | rfl
  · exact chunk_is_tile x1 x2 3840 30 (by decide) _ _
  · exact chunk_is_tile x1 x2 3584 28 (by decide) _ _
  · exact chunk_is_tile x1 x2 3328 26 (by decide) _ _
  · exact chunk_is_tile x1 x2 3072 24 (by decide) _ _
  · exact chunk_is_tile x1 x2 2816 22 (by decide) _ _
  · exact chunk_is_tile x1 x2 2560 20 (by decide) _ _
  · exact chunk_is_tile x1 x2 2304 18 (by decide) _ _
  · exact chunk_is_tile x1 x2 2048 16 (by decide) _ _
  · exact chunk_is_tile x1 x2 1792 14 (by decide) _ _
  · exact chunk_is_tile x1 x2 1536 12 (by decide) _ _
  · exact chunk_is_tile x1 x2 1280 10 (by decide) _ _
  · exact chunk_is_tile x1 x2 1024 8 (by decide) _ _
  · exact chunk_is_tile x1 x2 768 6 (by decide) _ _
  · exact chunk_is_tile x1 x2 512 4 (by decide) _ _
  · exact chunk_is_tile x1 x2 256 2 (by decide) _ _
  · exact chunk_is_tile x1 x2 0 0 (by decide) _ _

end Cert.KernelIdeal.Bridge

end
-- ==== Proof.KMatmul.lean ====
/-
  The body's product and bias, read at an entry.

  With the [256, 4096] block of x rows, the [1024, 4096] scaled weight tile held in the scratch buffer and the
  [1, 1024] bias piece, the body forms the product of the x block with the transpose of the tile into a zero
  accumulator and adds the bias row to every row: over the extended reals, entry (r, c) is

      (Σ_k xblock[r, k] · tile[c, k]) + bias[0, c].
-/
import proofs.«164766_j54666343743647_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Bridge

open Idealize.ShloMosaic Idealize.ShloMosaic.ValueIdx Idealize.ShloMosaic.View
open Cert.KernelIdeal Cert.KernelIdeal.Gen

/-- The left operand of the body's product at output entry (r, c) and contraction position k is (r, k). -/
theorem dot_lhs (j : S256x1024.Idx) (k : Fin 4096) :
    dot_S256x4096_S1024x4096_S256x1024_1_1_0_0_n_n.lhsIdx j ((contrEquiv1 dot_S256x4096_S1024x4096_S256x1024_1_1_0_0_n_n 4096 rfl rfl).symm k) = ix2 (n0 := 256) (n1 := 4096) (j 0) k :=
  funext fun a => Fin.ext (by
    match a with
    | ⟨0, _⟩ =>
      show (dot_S256x4096_S1024x4096_S256x1024_1_1_0_0_n_n.lhsIdx j _ 0).val = (j 0).val
      unfold DotDims.lhsIdx
      rw [dif_neg (show ¬(0 : Fin S256x4096.rank) ∈ dot_S256x4096_S1024x4096_S256x1024_1_1_0_0_n_n.lhsBatch by decide),
        dif_pos (show (0 : Fin S256x4096.rank) ∈ dot_S256x4096_S1024x4096_S256x1024_1_1_0_0_n_n.lhsNonContracting by decide)]
      rfl
    | ⟨1, _⟩ =>
      exact (dot_S256x4096_S1024x4096_S256x1024_1_1_0_0_n_n.lhsIdx_val_of_single rfl j _).trans (contrEquiv1_symm_val dot_S256x4096_S1024x4096_S256x1024_1_1_0_0_n_n 4096 rfl rfl k))

/-- The right operand there is (c, k): the tile is contracted along its columns. -/
theorem dot_rhs (j : S256x1024.Idx) (k : Fin 4096) :
    dot_S256x4096_S1024x4096_S256x1024_1_1_0_0_n_n.rhsIdx j ((contrEquiv1 dot_S256x4096_S1024x4096_S256x1024_1_1_0_0_n_n 4096 rfl rfl).symm k) = ix2 (n0 := 1024) (n1 := 4096) (j 1) k :=
  funext fun a => Fin.ext (by
    match a with
    | ⟨0, _⟩ =>
      show (dot_S256x4096_S1024x4096_S256x1024_1_1_0_0_n_n.rhsIdx j _ 0).val = (j 1).val
      unfold DotDims.rhsIdx
      rw [dif_neg (show ¬(0 : Fin S1024x4096.rank) ∈ dot_S256x4096_S1024x4096_S256x1024_1_1_0_0_n_n.rhsBatch by decide),
        dif_pos (show (0 : Fin S1024x4096.rank) ∈ dot_S256x4096_S1024x4096_S256x1024_1_1_0_0_n_n.rhsNonContracting by decide)]
      rfl
    | ⟨1, _⟩ =>
      exact (dot_S256x4096_S1024x4096_S256x1024_1_1_0_0_n_n.rhsIdx_val_of_single rfl j _).trans (contrEquiv1_symm_val dot_S256x4096_S1024x4096_S256x1024_1_1_0_0_n_n 4096 rfl rfl k))

/-- The body's product and bias at (r, c): the sum over k of xblock[r, k] · tile[c, k], plus bias[0, c]. -/
theorem gemm_apply (xv : Vec Ideal S256x4096 .bf16) (dv : Vec Ideal S1024x4096 .bf16) (bv : Vec Ideal S1x1024 .f32)
    (r : Fin 256) (c : Fin 1024) :
    k0_pay2 (F := Ideal) xv dv bv (ix2 r c)
      = (∑ k : Fin 4096, xv (ix2 r k) * dv (ix2 c k)) + bv (ix2 (0 : Fin 1) c) := by
  unfold k0_pay2
  rw [shapeCast_self, shapeCast_self]
  show matmul dot_S256x4096_S1024x4096_S256x1024_1_1_0_0_n_n none xv dv (constant (F := Ideal) S256x1024 .f32 0x00000000#32) (ix2 r c)
      + broadcastTo S256x1024 bv broadcasts_S1x1024_S256x1024 (ix2 r c) = _
  rw [broadcastTo_1b_ab_apply bv broadcasts_S1x1024_S256x1024 r c]
  refine congrArg (· + bv (ix2 (0 : Fin 1) c)) ?_
  simp only [matmul]
  rw [Ideal.matmul_constant_zero_apply, ← Equiv.sum_comp (contrEquiv1 dot_S256x4096_S1024x4096_S256x1024_1_1_0_0_n_n 4096 rfl rfl).symm]
  refine Finset.sum_congr rfl fun k _ => ?_
  rw [dot_lhs, dot_rhs]

end Cert.KernelIdeal.Bridge

end
-- ==== Proof.KBlocks.lean ====
/-
  The windows' blocks, read off their arrays.

  The grid has 16 × 16 points; point number t has outer coordinate t / 16 (a tile of 1024 weight rows, that is of
  1024 output columns) and inner coordinate t % 16 (a block of 256 x rows, that is of 256 output rows). At point t
    the x block is rows 256·(t % 16) … of the flattened x [4096, 4096],
    the weight block is rows 1024·(t / 16) … of the weight [16384, 4096],
    the scale block is rows 8·(t / 16) … of the scale [128, 32],
    the bias piece is columns 1024·(t / 16) … of the bias row [1, 16384],
    the output block is rows 256·(t % 16) …, columns 1024·(t / 16) … of the output [4096, 16384].
-/
import proofs.«164766_j54666343743647_2_alg».proof.Proof.Gen.KernelIdeal.Frame
import Idealize.ShloMosaic.Lib.Pipeline.Value
import Idealize.ShloMosaic.Lib.ValueIdx

set_option maxRecDepth 16384

noncomputable section

namespace Cert.KernelIdeal.Bridge

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The printed index maps at point number t, decided over the 256 points. -/
theorem idx_facts : ∀ t : Fin cfg0.N,
    win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val / 16
    ∧ win0_4.index t (0 : Fin 2) = t.val % 16 ∧ win0_4.index t (1 : Fin 2) = t.val / 16 :=
  (by decide +kernel : ∀ t : Fin grid0.N, _)

/-- The x block at point t, entry (r, k): row 256·(t % 16) + r of the flattened x. -/
theorem xblock_apply (c : Dev nD) (t : Fin cfg0.N) (r : Fin 256) (k : Fin 4096) :
    (iblk m c 0 t : Vec F S256x4096 .bf16) (ix2 r k)
      = V m c main_v1 (ix2 (n0 := 4096) (n1 := 4096) ⟨t.val % 16 * 256 + r.val, by have := r.isLt; omega⟩ k) := by
  obtain ⟨e0, e1, -⟩ := idx_facts t
  unfold iblk
  rw [View.read_apply]
  show V m c main_v1 (((cfg0.win 0).blk t).view.emb (ix2 r k)) = _
  refine congrArg (V m c main_v1) (funext fun a => Fin.ext ?_)
  match a with
  | ⟨0, _⟩ => show win0_0.index t (0 : Fin 2) * 256 + 1 * r.val = t.val % 16 * 256 + r.val; rw [e0]; omega
  | ⟨1, _⟩ => show win0_0.index t (1 : Fin 2) * 4096 + 1 * k.val = k.val; rw [e1]; omega

/-- The weight block at point t, entry (p, k): row 1024·(t / 16) + p of the weight. -/
theorem wblock_apply (c : Dev nD) (t : Fin cfg0.N) (p : Fin 1024) (k : Fin 4096) :
    (iblk m c 1 t : Vec F S1024x4096 .bf16) (ix2 p k)
      = V m c main_v2 (ix2 (n0 := 16384) (n1 := 4096)
          ⟨t.val / 16 * 1024 + p.val, by have := p.isLt; have := lt_of_lt_of_eq t.isLt (show cfg0.N = 256 from N_0); omega⟩ k) := by
  obtain ⟨-, -, e0, e1, -⟩ := idx_facts t
  unfold iblk
  rw [View.read_apply]
  show V m c main_v2 (((cfg0.win 1).blk t).view.emb (ix2 p k)) = _
  refine congrArg (V m c main_v2) (funext fun a => Fin.ext ?_)
  match a with
  | ⟨0, _⟩ => show win0_1.index t (0 : Fin 2) * 1024 + 1 * p.val = t.val / 16 * 1024 + p.val; rw [e0]; omega
  | ⟨1, _⟩ => show win0_1.index t (1 : Fin 2) * 4096 + 1 * k.val = k.val; rw [e1]; omega

/-- The scale block at point t, entry (a, b): row 8·(t / 16) + a of the scale. -/
theorem sblock_apply (c : Dev nD) (t : Fin cfg0.N) (a : Fin 8) (b : Fin 32) :
    (iblk m c 2 t : Vec F S8x32 .f32) (ix2 a b)
      = V m c main_arg2 (ix2 (n0 := 128) (n1 := 32)
          ⟨t.val / 16 * 8 + a.val, by have := a.isLt; have := lt_of_lt_of_eq t.isLt (show cfg0.N = 256 from N_0); omega⟩ b) := by
  obtain ⟨-, -, -, -, e0, e1, -⟩ := idx_facts t
  unfold iblk
  rw [View.read_apply]
  show V m c main_arg2 (((cfg0.win 2).blk t).view.emb (ix2 a b)) = _
  refine congrArg (V m c main_arg2) (funext fun ax => Fin.ext ?_)
  match ax with
  | ⟨0, _⟩ => show win0_2.index t (0 : Fin 2) * 8 + 1 * a.val = t.val / 16 * 8 + a.val; rw [e0]; omega
  | ⟨1, _⟩ => show win0_2.index t (1 : Fin 2) * 32 + 1 * b.val = b.val; rw [e1]; omega

/-- The bias piece at point t, entry (0, q): column 1024·(t / 16) + q of the bias row. -/
theorem bblock_apply (c : Dev nD) (t : Fin cfg0.N) (u : Fin 1) (q : Fin 1024) :
    (iblk m c 3 t : Vec F S1x1024 .f32) (ix2 u q)
      = V m c main_v3 (ix2 (n0 := 1) (n1 := 16384) 0
          ⟨t.val / 16 * 1024 + q.val, by have := q.isLt; have := lt_of_lt_of_eq t.isLt (show cfg0.N = 256 from N_0); omega⟩) := by
  obtain ⟨-, -, -, -, -, -, e0, e1, -⟩ := idx_facts t
  unfold iblk
  rw [View.read_apply]
  show V m c main_v3 (((cfg0.win 3).blk t).view.emb (ix2 u q)) = _
  refine congrArg (V m c main_v3) (funext fun ax => Fin.ext ?_)
  have hu : u.val = 0 := by omega
  match ax with
  | ⟨0, _⟩ => show win0_3.index t (0 : Fin 2) * 1 + 1 * u.val = 0; rw [e0, hu]
  | ⟨1, _⟩ => show win0_3.index t (1 : Fin 2) * 1024 + 1 * q.val = t.val / 16 * 1024 + q.val; rw [e1]; omega

end Cert.KernelIdeal.Bridge

end
-- ==== Proof.KInvariant.lean ====
/-
  What the two buffers hold after each grid point, in terms of the whole arrays.

  The points run in the order of their numbers; point t is the (t % 16)-th of grid row t / 16. A grid row begins by
  filling the scratch buffer with the scaled tile of weight rows 1024·(t / 16) …, and the fifteen points that follow leave
  it alone. So, by induction on the position, after point n the scratch buffer holds the scaled weight on rows
  1024·(n / 16) … 1024·(n / 16) + 1023: a point with n % 16 = 0 has just written exactly that, and for any other point
  (n − 1) / 16 = n / 16. Hence at every point the output block is the block of the specification: entry (r, q) is the sum
  over k of x2[256·(t % 16) + r, k] times the scaled weight at (1024·(t / 16) + q, k), plus the bias at 1024·(t / 16) + q.
-/
import proofs.«164766_j54666343743647_2_alg».proof.Proof.Gen.KernelIdeal.Frame
import proofs.«164766_j54666343743647_2_alg».proof.Proof.Spec
import proofs.«164766_j54666343743647_2_alg».proof.Proof.KPieces
import proofs.«164766_j54666343743647_2_alg».proof.Proof.KMatmul
import proofs.«164766_j54666343743647_2_alg».proof.Proof.KBlocks

set_option maxRecDepth 16384

noncomputable section

open scoped BigOperators

namespace Cert.KernelIdeal.Bridge

open Idealize.ShloMosaic Idealize.ShloMosaic.TcCoe Idealize.SL.Sem Idealize.ShloMosaic.ValueIdx
open Cert.KernelIdeal Cert.KernelIdeal.Gen Cert.DequantGemm

variable (m : (ℓ : Loc nD τ sig) → Buf (Elt Ideal) ℓ)

theorem lt256 {n : ℕ} (h : n < cfg0.N) : n < 256 := lt_of_lt_of_eq h (show cfg0.N = 256 from N_0)

/-- Row p of the tile of grid row n / 16, as a row of the weight. -/
abbrev tileRow (n : ℕ) (h : n < cfg0.N) (p : Fin 1024) : Fin 16384 :=
  ⟨n / 16 * 1024 + p.val, by have := p.isLt; have := lt256 h; omega⟩

/-- Row r of the x block of inner coordinate n % 16, as a row of the flattened x. -/
abbrev blockRow (n : ℕ) (r : Fin 256) : Fin 4096 :=
  ⟨n % 16 * 256 + r.val, by have := r.isLt; omega⟩

/-- A point that begins a grid row leaves the scaled weight, on its tile's rows, in the scratch buffer. -/
theorem scratch_first (c : Dev nD) (t : Fin cfg0.N) (h0 : t.val % 16 = 0) (p : Fin 1024) (k : Fin 4096) :
    (outsAt0 m c t.val t.isLt).2 (ix2 p k) = scaled (V m c main_v2) (V m c main_arg2) (tileRow t.val t.isLt p) k := by
  rw [outsAt0_A m c t h0]
  dsimp only
  refine (congrFun (tile_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)) (ix2 p k)).trans ?_
  unfold tile scaled
  have hp := p.isLt
  have ht := lt256 t.isLt
  refine congrArg₂ (fun (a b : EReal) => a * b) (wblock_apply m c t p k) ?_
  refine (sblock_apply m c t ⟨p.val / 128, by omega⟩ ⟨k.val / 128, by have := k.isLt; omega⟩).trans
    (congrArg (V m c main_arg2) (funext fun a => Fin.ext ?_))
  match a with
  | ⟨0, _⟩ => show t.val / 16 * 8 + p.val / 128 = (t.val / 16 * 1024 + p.val) / 128; omega
  | ⟨1, _⟩ => rfl

/-- After every point the scratch buffer holds the scaled weight on the rows of the current grid row's tile. -/
theorem scratch_apply (c : Dev nD) : ∀ (n : ℕ) (h : n < cfg0.N) (p : Fin 1024) (k : Fin 4096),
    (outsAt0 m c n h).2 (ix2 p k) = scaled (V m c main_v2) (V m c main_arg2) (tileRow n h p) k := by
  intro n
  induction n with
  | zero => intro h p k; exact scratch_first m c ⟨0, h⟩ rfl p k
  | succ n ih =>
    intro h p k
    by_cases h0 : (n + 1) % 16 = 0
    · exact scratch_first m c ⟨n + 1, h⟩ h0 p k
    · rw [outsAt0_B m c ⟨n + 1, h⟩ h0]
      dsimp only
      unfold sout0_B_0
      show (outsAt0 m c n (Nat.lt_of_succ_lt h)).2 (ix2 p k) = _
      rw [ih (Nat.lt_of_succ_lt h) p k]
      unfold scaled
      have e : tileRow n (Nat.lt_of_succ_lt h) p = tileRow (n + 1) h p := Fin.ext (by
        show n / 16 * 1024 + p.val = (n + 1) / 16 * 1024 + p.val
        omega)
      rw [e]

/-- At every point the output block is the product-plus-bias of the x block, the scratch contents after the point,
    and the bias piece: at the start of a grid row the scratch has just been filled, elsewhere it is as found. -/
theorem out_eq_gemm (c : Dev nD) (t : Fin cfg0.N) :
    (outsAt0 m c t.val t.isLt).1 = k0_pay2 (F := Ideal) (iblk m c 0 t) (outsAt0 m c t.val t.isLt).2 (iblk m c 3 t) := by
  by_cases h0 : t.val % 16 = 0
  · rw [outsAt0_A m c t h0]
    dsimp only
    exact out_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk m c 0 t) (iblk m c 1 t) (iblk m c 2 t) (iblk m c 3 t)
  · rw [outsAt0_B m c t h0]
    dsimp only
    exact out_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk m c 0 t) (iblk m c 1 t) (iblk m c 2 t) (iblk m c 3 t) _

/-- The output block at point t, entry (r, q), is the specification at row 256·(t % 16) + r, column 1024·(t / 16) + q. -/
theorem out_apply (c : Dev nD) (t : Fin cfg0.N) (r : Fin 256) (q : Fin 1024) :
    (outsAt0 m c t.val t.isLt).1 (ix2 r q)
      = flat (V m c main_v1) (V m c main_v2) (V m c main_arg2) (V m c main_v3)
          (ix2 (n0 := 4096) (n1 := 16384) (blockRow t.val r) (tileRow t.val t.isLt q)) := by
  rw [out_eq_gemm m c t]
  refine (gemm_apply (iblk m c 0 t) (outsAt0 m c t.val t.isLt).2 (iblk m c 3 t) r q).trans ?_
  unfold flat
  refine congrArg₂ (fun (a b : EReal) => a + b) (Finset.sum_congr rfl fun k _ => ?_) (bblock_apply m c t 0 q)
  exact congrArg₂ (fun (a b : EReal) => a * b) (xblock_apply m c t r k) (scratch_apply m c t.val t.isLt q k)

/-- The same at any entry of the block, by its two coordinates. -/
theorem out_apply_idx (c : Dev nD) (t : Fin cfg0.N) (y : S256x1024.Idx) :
    (outsAt0 m c t.val t.isLt).1 y
      = flat (V m c main_v1) (V m c main_v2) (V m c main_arg2) (V m c main_v3)
          (ix2 (n0 := 4096) (n1 := 16384) (blockRow t.val (y 0)) (tileRow t.val t.isLt (y 1))) := by
  exact (congrArg (outsAt0 m c t.val t.isLt).1 (eq_ix2 y)).trans (out_apply m c t (y 0) (y 1))

end Cert.KernelIdeal.Bridge

end
-- ==== Proof.KArray.lean ====
/-
  From the output blocks to the output array.

  Point t writes its block back to rows 256·(t % 16) …, columns 1024·(t / 16) … of the output [4096, 16384], and that
  block is the specification's restricted to those rows and columns. Entry (a, b) of the array lies in the block of
  the point number 16·(b / 1024) + a / 256, so the 256 blocks cover the array, and after the last point the array is
  the specification over the flattened rows.
-/
import proofs.«164766_j54666343743647_2_alg».proof.Proof.Gen.KernelIdeal.Frame
import proofs.«164766_j54666343743647_2_alg».proof.Proof.KInvariant
import Idealize.ShloMosaic.Lib.Pipeline.Value

set_option maxRecDepth 16384

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.DequantGemm

variable (m : (ℓ : Loc nD τ sig) → Buf (Elt Ideal) ℓ)

/-- What point t writes back is block t of the specification over the arrays as the region finds them. -/
theorem flushed_eq (c : Dev nD) (t : Fin cfg0.N) :
    (dats m 0 c).flushed 4 t = ((cfg0.win 4).blk t).view.read (Elt Ideal) (flat (V m c main_v1) (V m c main_v2) (V m c main_arg2) (V m c main_v3)) := by
  show (cfg0.win 4).cut (grid0.coords t) ((dats m 0 c).after 4 t) = _
  rw [after0_4]
  funext y
  rw [View.read_apply]
  refine (out_apply_idx m c t y).trans (congrArg (flat (V m c main_v1) (V m c main_v2) (V m c main_arg2) (V m c main_v3)) (funext fun a => Fin.ext ?_))
  obtain ⟨-, -, -, -, -, -, -, -, e0, e1⟩ := idx_facts t
  match a with
  | ⟨0, _⟩ => show t.val % 16 * 256 + (y 0).val = win0_4.index t (0 : Fin 2) * 256 + 1 * (y 0).val; rw [e0]; omega
  | ⟨1, _⟩ => show t.val / 16 * 1024 + (y 1).val = win0_4.index t (1 : Fin 2) * 1024 + 1 * (y 1).val; rw [e1]; omega

/-- An entry of the array is in point t's block iff each coordinate is in the block's range on its axis. -/
theorem mem_block (t : Fin cfg0.N) (i : S4096x16384.Idx) :
    i ∈ ((cfg0.win 4).blk t).view.set ↔ ∀ a : Fin 2, win0_4.index t a * S256x1024.size a ≤ (i a).val
      ∧ (i a).val < win0_4.index t a * S256x1024.size a + S256x1024.size a := by
  show i ∈ ((View.whole main_v4).slice (win0_4.rect t)).set ↔ _
  rw [View.set_slice_whole, Rect.mem_set_unit]
  exact Iff.rfl

/-- Every entry (a, b) of the array is in the block of point 16·(b / 1024) + a / 256. -/
theorem covered (i : S4096x16384.Idx) :
    ∃ t : Fin cfg0.N, (cfg0.win 4).flush t = true ∧ i ∈ ((cfg0.win 4).blk t).view.set := by
  have h0 : (i 0).val < 4096 := idx2_lt0 i
  have h1 : (i 1).val < 16384 := idx2_lt1 i
  have hN : cfg0.N = 256 := N_0
  have hlt : (i 1).val / 1024 * 16 + (i 0).val / 256 < cfg0.N := by rw [hN]; omega
  refine ⟨⟨(i 1).val / 1024 * 16 + (i 0).val / 256, hlt⟩, flush0_4 _, ?_⟩
  rw [mem_block]
  obtain ⟨-, -, -, -, -, -, -, -, e0, e1⟩ := idx_facts ⟨(i 1).val / 1024 * 16 + (i 0).val / 256, hlt⟩
  intro a
  match a with
  | ⟨0, _⟩ =>
    show win0_4.index ⟨(i 1).val / 1024 * 16 + (i 0).val / 256, hlt⟩ (0 : Fin 2) * 256 ≤ (i 0).val
      ∧ (i 0).val < win0_4.index ⟨(i 1).val / 1024 * 16 + (i 0).val / 256, hlt⟩ (0 : Fin 2) * 256 + 256
    rw [e0]
    show ((i 1).val / 1024 * 16 + (i 0).val / 256) % 16 * 256 ≤ (i 0).val
      ∧ (i 0).val < ((i 1).val / 1024 * 16 + (i 0).val / 256) % 16 * 256 + 256
    omega
  | ⟨1, _⟩ =>
    show win0_4.index ⟨(i 1).val / 1024 * 16 + (i 0).val / 256, hlt⟩ (1 : Fin 2) * 1024 ≤ (i 1).val
      ∧ (i 1).val < win0_4.index ⟨(i 1).val / 1024 * 16 + (i 0).val / 256, hlt⟩ (1 : Fin 2) * 1024 + 1024
    rw [e1]
    show ((i 1).val / 1024 * 16 + (i 0).val / 256) / 16 * 1024 ≤ (i 1).val
      ∧ (i 1).val < ((i 1).val / 1024 * 16 + (i 0).val / 256) / 16 * 1024 + 1024
    omega

/-- After the last point the output array is the specification over the flattened rows. -/
theorem array_eq (c : Dev nD) : (dats m 0 c).arrAt 4 cfg0.N = flat (V m c main_v1) (V m c main_v2) (V m c main_arg2) (V m c main_v3) :=
  (dats m 0 c).arrAt_eq_of_cover 4 (flat (V m c main_v1) (V m c main_v2) (V m c main_arg2) (V m c main_v3)) (fun t _ => flushed_eq m c t) covered

end Cert.KernelIdeal.Bridge

end
-- ==== Proof.KHost.lean ====
/-
  The host operations around the kernel, and the kernel program's result.

  Before the launch the program merges the first two axes of x ([2, 2048, 4096] to [4096, 4096]: row 2048·b + s is
  row (b, s)), changes x and the weight to a narrower float format (the identity on extended reals) and views the
  bias [16384] as one row [1, 16384]. After it, the output [4096, 16384] is split back to [2, 2048, 16384]. So the
  program's result at (b, s, o) is the output array at (2048·b + s, o), which is the specification there.
-/
import proofs.«164766_j54666343743647_2_alg».proof.Proof.Gen.KernelIdeal.Frame
import proofs.«164766_j54666343743647_2_alg».proof.Proof.KArray
import Idealize.ShloMosaic.Lib.Pipeline.Value
import Idealize.ShloMosaic.Lib.ValueLayout
import Idealize.ShloMosaic.Lib.StableHlo.Run
import Idealize.ShloMosaic.Lib.Tactic

set_option maxRecDepth 16384

noncomputable section

namespace Cert.KernelIdeal.Bridge

open Idealize.ShloMosaic Idealize.ShloMosaic.TcCoe Idealize.SL.Sem Idealize.ShloMosaic.ValueIdx
open Idealize.ShloMosaic.StableHlo
open Cert.KernelIdeal Cert.KernelIdeal.Gen Cert.DequantGemm

variable (m : (ℓ : Loc nD τ sig) → Buf (Elt Ideal) ℓ)

/-- The flattened x as the region finds it. -/
theorem x2_eq (c : Dev nD) : (V m c main_v1 : FVec Ideal S4096x4096 .bf16)
    = truncf (F := Ideal) .bf16 (shapeCast S4096x4096 ((m ((c : Thread nD τ).loc main_arg0)) : FVec Ideal S2x2048x4096 .f32)
        shapeCasts_S2x2048x4096_S4096x4096) bitsLt_bf16_f32 := by
  show StableHlo.after hostOps0 (fun b => m (c, b)) (Proc.devRef .tc main_v1) = _
  after_results <;> rfl

/-- Row 2048·b + s of the flattened x is row (b, s) of x. -/
theorem x2_apply (c : Dev nD) (b : Fin 2) (s : Fin 2048) (k : Fin 4096) :
    (V m c main_v1 (ix2 (n0 := 4096) (n1 := 4096) ⟨b.val * 2048 + s.val, by have := b.isLt; have := s.isLt; omega⟩ k) : EReal)
      = (m ((c : Thread nD τ).loc main_arg0)) (ix3 b s k) := by
  rw [x2_eq]
  show shapeCast S4096x4096 ((m ((c : Thread nD τ).loc main_arg0)) : FVec Ideal S2x2048x4096 .f32) shapeCasts_S2x2048x4096_S4096x4096
      (ix2 (n0 := 4096) (n1 := 4096) ⟨b.val * 2048 + s.val, _⟩ k) = _
  exact shapeCast_apply ((m ((c : Thread nD τ).loc main_arg0)) : FVec Ideal S2x2048x4096 .f32) shapeCasts_S2x2048x4096_S4096x4096 _ (ix3 b s k)
    (by show (S2x2048x4096.rowMajor (ix3 b s k)).val
          = (S4096x4096.rowMajor (ix2 (n0 := 4096) (n1 := 4096) ⟨b.val * 2048 + s.val, _⟩ k)).val
        rw [Shape.rowMajor_val_three, Shape.rowMajor_val_two]; rfl)

/-- The weight as the region finds it is the weight. -/
theorem w2_eq (c : Dev nD) : (V m c main_v2 : FVec Ideal S16384x4096 .bf16)
    = truncf (F := Ideal) .bf16 ((m ((c : Thread nD τ).loc main_arg1)) : FVec Ideal S16384x4096 .f32) bitsLt_bf16_f32 := by
  show StableHlo.after hostOps0 (fun b => m (c, b)) (Proc.devRef .tc main_v2) = _
  after_results <;> rfl

/-- The bias row as the region finds it. -/
theorem b2_eq (c : Dev nD) : (V m c main_v3 : FVec Ideal S1x16384 .f32)
    = shapeCast S1x16384 ((m ((c : Thread nD τ).loc main_arg3)) : FVec Ideal S16384 .f32) shapeCasts_S16384_S1x16384 := by
  show StableHlo.after hostOps0 (fun b => m (c, b)) (Proc.devRef .tc main_v3) = _
  after_results <;> rfl

/-- Entry (0, o) of the bias row is the bias at o. -/
theorem b2_apply (c : Dev nD) (o : Fin 16384) :
    (V m c main_v3 (ix2 (n0 := 1) (n1 := 16384) 0 o) : EReal) = (m ((c : Thread nD τ).loc main_arg3)) (ix1 o) := by
  rw [b2_eq]
  exact shapeCast_a_1a_apply ((m ((c : Thread nD τ).loc main_arg3)) : FVec Ideal S16384 .f32) shapeCasts_S16384_S1x16384 0 o

/-- The kernel program's result: the specification of its four argument arrays. -/
theorem program_result (c : Dev nD) :
    Pipeline.afterTail₀ cfgs (dats m) 0 (V0 m) [hostOps1] c main_v5
      = result (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v5) = _
  after_results
  have hw : Pipeline.withArrays (cfgs 0).spec c (V0 m c) (fun w => (dats m 0 c).arrAt w (cfgs 0).N) (Proc.devRef .tc main_v4)
      = flat (V m c main_v1) (V m c main_v2) (V m c main_arg2) (V m c main_v3) :=
    (Pipeline.withArrays_arr spec0 launch0.win.arr_inj c _ _ 4).trans (array_eq m c)
  refine Eq.trans (b := shapeCast S2x2048x16384 (flat (V m c main_v1) (V m c main_v2) (V m c main_arg2) (V m c main_v3)) shapeCasts_S4096x16384_S2x2048x16384) ?_ ?_
  · exact congrArg (fun A => shapeCast S2x2048x16384 A shapeCasts_S4096x16384_S2x2048x16384) hw
  · funext i
    obtain ⟨b, s, o, rfl⟩ : ∃ (b : Fin 2) (s : Fin 2048) (o : Fin 16384), i = ix3 b s o := ⟨i 0, i 1, i 2, eq_ix3 i⟩
    rw [shapeCast_apply _ shapeCasts_S4096x16384_S2x2048x16384 (ix3 b s o)
      (ix2 (n0 := 4096) (n1 := 16384) ⟨b.val * 2048 + s.val, by have := b.isLt; have := s.isLt; omega⟩ o)
      (by show (S4096x16384.rowMajor (ix2 (n0 := 4096) (n1 := 16384) ⟨b.val * 2048 + s.val, _⟩ o)).val
            = (S2x2048x16384.rowMajor (ix3 b s o)).val
          rw [Shape.rowMajor_val_three, Shape.rowMajor_val_two]; rfl)]
    rw [w2_eq, V_main_arg2]
    exact flat_eq_result (m ((c : Thread nD τ).loc main_arg0)) (V m c main_v1) (m ((c : Thread nD τ).loc main_arg1)) (m ((c : Thread nD τ).loc main_arg2)) (m ((c : Thread nD τ).loc main_arg3)) (V m c main_v3)
      (x2_apply m c) (b2_apply m c) b s o

/-- The kernel program's run, read: every weakly fair execution terminates with the result array at the specification
    of the argument arrays, and the argument arrays unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v5)
        = result (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (program_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Bridge

end
-- ==== Proof.lean ====
/-
  The kernel program and the reference program compute the same array over the extended reals:

      out[b, s, o] = (Σ_k x[b, s, k] · (w[o, k] · scale[o / 128, k / 128])) + bias[o]      (Proof/Spec.lean).

  The reference scales the weight block by block through a four-axis view of it, contracts x with the scaled weight
  and adds the bias (Proof/RefSide.lean). The kernel program merges the first two axes of x, runs a 16 × 16 grid —
  grid row j owns the 1024 weight rows of tile j, whose scaled form it builds once, at its first point, into a
  buffer the other fifteen points of the row reuse; point (j, i) writes the block of 256 rows and 1024 columns that
  is the product of x block i with the transpose of that scaled tile, plus the bias — and splits the rows back
  (Proof/KDequant.lean, KMatmul.lean, KPieces.lean, KBlocks.lean, KInvariant.lean, KArray.lean, KHost.lean).
  Both sides form the same products w · scale, then x · (w · scale), and the same sum over k, so no law beyond
  reading each side entry by entry is needed, and finiteness of the inputs is never used.

  Each program terminates without a fault and leaves its arguments unchanged (the frames); the idealization step
  rewrote nothing, so there is nothing to preserve.
-/
import proofs.«164766_j54666343743647_2_alg».proof.Defs
import proofs.«164766_j54666343743647_2_alg».proof.Proof.Gen.Kernel
import proofs.«164766_j54666343743647_2_alg».proof.Proof.Gen.Kernel.Skeleton
import proofs.«164766_j54666343743647_2_alg».proof.Proof.Gen.Kernel.Launch
import proofs.«164766_j54666343743647_2_alg».proof.Proof.Gen.Kernel.Points
import proofs.«164766_j54666343743647_2_alg».proof.Proof.Gen.Kernel.Frame
import proofs.«164766_j54666343743647_2_alg».proof.Proof.Gen.KernelIdeal
import proofs.«164766_j54666343743647_2_alg».proof.Proof.Gen.KernelIdeal.Skeleton
import proofs.«164766_j54666343743647_2_alg».proof.Proof.Gen.KernelIdeal.Launch
import proofs.«164766_j54666343743647_2_alg».proof.Proof.Gen.KernelIdeal.Points
import proofs.«164766_j54666343743647_2_alg».proof.Proof.Gen.KernelIdeal.Frame
import proofs.«164766_j54666343743647_2_alg».proof.Proof.Gen.ReferenceIdeal
import proofs.«164766_j54666343743647_2_alg».proof.Proof.Gen.ReferenceIdeal.Run
import proofs.«164766_j54666343743647_2_alg».proof.Proof.Gen.ReferenceIdeal.Read
import proofs.«164766_j54666343743647_2_alg».proof.Proof.Gen.Pre_finite_inputs
import proofs.«164766_j54666343743647_2_alg».proof.Proof.Spec
import proofs.«164766_j54666343743647_2_alg».proof.Proof.RefSide
import proofs.«164766_j54666343743647_2_alg».proof.Proof.KHost
import Idealize.ShloMosaic.Adequacy
import Idealize.ShloMosaic.Init

noncomputable section

namespace Cert.Proof

open Idealize.ShloMosaic Idealize.ShloMosaic.TcCoe Idealize.SL.Sem

/-- The kernel program as printed terminates, faults nowhere and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the four arguments both programs end with the specification of those arguments in
    their result arrays: the kernel program by its run read through the grid, the reference by its operations read
    one at a time. -/
theorem algebraic : Cert.algebraic_KernelIdeal_ReferenceIdeal := by
  intro m ρ m' ρ' _ hagree
  refine ⟨fun c => Cert.DequantGemm.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Bridge.reference_result,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
